-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128 .f32) (main_arg7 : FVec F S128x128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S64 : Shape := ⟨1, ![64]⟩
abbrev S64x128 : Shape := ⟨2, ![64, 128]⟩
abbrev S64x1 : Shape := ⟨2, ![64, 1]⟩

abbrev nBuf : Space → Nat
  | .hbm => 126
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S600000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x1, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x1, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S50000, .f32⟩
  | .hbm, ⟨87, _⟩ => ⟨S600000x1, .i32⟩
  | .hbm, ⟨88, _⟩ => ⟨S50000, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S64, .f32⟩
  | .hbm, ⟨114, _⟩ => ⟨S50000x1, .i32⟩
  | .hbm, ⟨115, _⟩ => ⟨S64, .f32⟩
  | .hbm, ⟨116, _⟩ => ⟨S_, .f32⟩
  | .hbm, ⟨117, _⟩ => ⟨S64x128, .f32⟩
  | .hbm, ⟨118, _⟩ => ⟨S50000x1, .i32⟩
  | .hbm, ⟨119, _⟩ => ⟨S64x128, .f32⟩
  | .hbm, ⟨120, _⟩ => ⟨S_, .f32⟩
  | .hbm, ⟨121, _⟩ => ⟨S64, .f32⟩
  | .hbm, ⟨122, _⟩ => ⟨S64, .f32⟩
  | .hbm, ⟨123, _⟩ => ⟨S64x1, .f32⟩
  | .hbm, ⟨124, _⟩ => ⟨S64x128, .f32⟩
  | .hbm, ⟨125, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64 : Shape := ⟨1, ![64]⟩
abbrev S64x128 : Shape := ⟨2, ![64, 128]⟩
abbrev S64x1 : Shape := ⟨2, ![64, 1]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S50000x128, .f32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S600000x1, .f32⟩
  | 54 => ⟨S600000x128, .f32⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S_, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .f32⟩
  | 75 => ⟨S600000, .f32⟩
  | 76 => ⟨S_, .f32⟩
  | 77 => ⟨S50000, .f32⟩
  | 78 => ⟨S600000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000, .f32⟩
  | 102 => ⟨S600000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S600000x1, .f32⟩
  | 113 => ⟨S600000x128, .f32⟩
  | 114 => ⟨S600000x128, .f32⟩
  | 115 => ⟨S_, .f32⟩
  | 116 => ⟨S50000x128, .f32⟩
  | 117 => ⟨S600000x1, .i32⟩
  | 118 => ⟨S50000x128, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S600000, .f32⟩
  | 6 => ⟨S_, .f32⟩
  | 7 => ⟨S50000, .f32⟩
  | 8 => ⟨S600000x1, .i32⟩
  | 9 => ⟨S50000, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S_, .f32⟩
  | 20 => ⟨S50000x128, .f32⟩
  | 21 => ⟨S600000x1, .i32⟩
  | 22 => ⟨S50000x128, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000, .f32⟩
  | 37 => ⟨S_, .f32⟩
  | 38 => ⟨S64, .f32⟩
  | 39 => ⟨S50000x1, .i32⟩
  | 40 => ⟨S64, .f32⟩
  | 41 => ⟨S_, .f32⟩
  | 42 => ⟨S64x128, .f32⟩
  | 43 => ⟨S50000x1, .i32⟩
  | 44 => ⟨S64x128, .f32⟩
  | 45 => ⟨S_, .f32⟩
  | 46 => ⟨S64, .f32⟩
  | 47 => ⟨S64, .f32⟩
  | 48 => ⟨S64x1, .f32⟩
  | 49 => ⟨S64x128, .f32⟩
  | 50 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call1_cst : Ref sig .tc := ⟨.hbm, 129, rfl⟩
abbrev main_call1_v0 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_cst_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_22 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_25 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_26 : Ref sig .tc := ⟨.hbm, 163, rfl⟩
abbrev main_v121 : Ref sig .tc := ⟨.hbm, 164, rfl⟩
abbrev main_cst_27 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_29 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.Carried.lean ====
/-
  What the shared buffers hold at each boundary of the kernel's @main.

  The first stretch of host operations computes, from the edge list alone, the source and destination indices, a
  vector of ones over the edges, the symmetric normalisation of every edge and the reciprocal degree of every node
  laid out as a column. Nothing later writes these buffers: a tiled region rewrites only its own output array and a
  host stretch only the buffers its operations write. So at every later boundary they hold what they held after the
  first stretch, and the arguments hold what they held at launch. Each value is named by the reference's own stage
  function of the same arguments: the two programs compute these with the same operations.
-/
import proofs.«161812_j81604378624011_1_alg».proof.Proof.Gen.KernelIdeal.Frame
import proofs.«161812_j81604378624011_1_alg».proof.Proof.Gen.ReferenceIdeal.Read
import Idealize.ShloMosaic.Lib.StableHlo.Run

set_option maxRecDepth 16384

noncomputable section

namespace Cert.KernelIdeal.Carried

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg)

/-- An argument's (or any buffer's) contents at launch on core `c`. -/
abbrev arg (c : Dev nD) (b : Ref sig .tc) : Buf (Elt Ideal) ((c : Thread nD τ).loc b) := m ((c : Thread nD τ).loc b)

/-- A buffer none of a stretch's operations writes keeps its contents through the stretch: every operation writes one
    buffer, and that buffer is another reference. -/
macro "not_written_by " ops:ident : term => `(StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

theorem w1_v1 (c : Dev nD) : W1 m ρ c (Proc.devRef .tc main_v1) = val_main_v1 (F := Ideal) (arg m c main_arg1) := by
  show StableHlo.after hostOps0 (W0 m ρ c) (Proc.devRef .tc main_v1) = _
  after_results_simp
  rfl
theorem w2_v1 (c : Dev nD) : W2 m ρ c (Proc.devRef .tc main_v1) = val_main_v1 (F := Ideal) (arg m c main_arg1) :=
  (W2_of_ne m ρ c main_v1 (by decide)).trans (w1_v1 m ρ c)
theorem w3_v1 (c : Dev nD) : W3 m ρ c (Proc.devRef .tc main_v1) = val_main_v1 (F := Ideal) (arg m c main_arg1) :=
  ((not_written_by hostOps1 : StableHlo.after hostOps1 (W2 m ρ c) (Proc.devRef .tc main_v1) = W2 m ρ c (Proc.devRef .tc main_v1))).trans (w2_v1 m ρ c)
theorem w4_v1 (c : Dev nD) : W4 m ρ c (Proc.devRef .tc main_v1) = val_main_v1 (F := Ideal) (arg m c main_arg1) :=
  (W4_of_ne m ρ c main_v1 (by decide)).trans (w3_v1 m ρ c)
theorem w5_v1 (c : Dev nD) : W5 m ρ c (Proc.devRef .tc main_v1) = val_main_v1 (F := Ideal) (arg m c main_arg1) :=
  (W5_of_ne m ρ c main_v1 (by decide)).trans (w4_v1 m ρ c)
theorem w6_v1 (c : Dev nD) : W6 m ρ c (Proc.devRef .tc main_v1) = val_main_v1 (F := Ideal) (arg m c main_arg1) :=
  ((not_written_by hostOps3 : StableHlo.after hostOps3 (W5 m ρ c) (Proc.devRef .tc main_v1) = W5 m ρ c (Proc.devRef .tc main_v1))).trans (w5_v1 m ρ c)
theorem w7_v1 (c : Dev nD) : W7 m ρ c (Proc.devRef .tc main_v1) = val_main_v1 (F := Ideal) (arg m c main_arg1) :=
  (W7_of_ne m ρ c main_v1 (by decide)).trans (w6_v1 m ρ c)

theorem w1_v3 (c : Dev nD) : W1 m ρ c (Proc.devRef .tc main_v3) = val_main_v3 (F := Ideal) (arg m c main_arg1) := by
  show StableHlo.after hostOps0 (W0 m ρ c) (Proc.devRef .tc main_v3) = _
  after_results_simp
  rfl
theorem w2_v3 (c : Dev nD) : W2 m ρ c (Proc.devRef .tc main_v3) = val_main_v3 (F := Ideal) (arg m c main_arg1) :=
  (W2_of_ne m ρ c main_v3 (by decide)).trans (w1_v3 m ρ c)
theorem w3_v3 (c : Dev nD) : W3 m ρ c (Proc.devRef .tc main_v3) = val_main_v3 (F := Ideal) (arg m c main_arg1) :=
  ((not_written_by hostOps1 : StableHlo.after hostOps1 (W2 m ρ c) (Proc.devRef .tc main_v3) = W2 m ρ c (Proc.devRef .tc main_v3))).trans (w2_v3 m ρ c)
theorem w4_v3 (c : Dev nD) : W4 m ρ c (Proc.devRef .tc main_v3) = val_main_v3 (F := Ideal) (arg m c main_arg1) :=
  (W4_of_ne m ρ c main_v3 (by decide)).trans (w3_v3 m ρ c)
theorem w5_v3 (c : Dev nD) : W5 m ρ c (Proc.devRef .tc main_v3) = val_main_v3 (F := Ideal) (arg m c main_arg1) :=
  (W5_of_ne m ρ c main_v3 (by decide)).trans (w4_v3 m ρ c)
theorem w6_v3 (c : Dev nD) : W6 m ρ c (Proc.devRef .tc main_v3) = val_main_v3 (F := Ideal) (arg m c main_arg1) :=
  ((not_written_by hostOps3 : StableHlo.after hostOps3 (W5 m ρ c) (Proc.devRef .tc main_v3) = W5 m ρ c (Proc.devRef .tc main_v3))).trans (w5_v3 m ρ c)
theorem w7_v3 (c : Dev nD) : W7 m ρ c (Proc.devRef .tc main_v3) = val_main_v3 (F := Ideal) (arg m c main_arg1) :=
  (W7_of_ne m ρ c main_v3 (by decide)).trans (w6_v3 m ρ c)

theorem w1_v4 (c : Dev nD) : W1 m ρ c (Proc.devRef .tc main_v4) = val_main_v5 (F := Ideal) := by
  show StableHlo.after hostOps0 (W0 m ρ c) (Proc.devRef .tc main_v4) = _
  after_results_simp
  rfl
theorem w2_v4 (c : Dev nD) : W2 m ρ c (Proc.devRef .tc main_v4) = val_main_v5 (F := Ideal) :=
  (W2_of_ne m ρ c main_v4 (by decide)).trans (w1_v4 m ρ c)
theorem w3_v4 (c : Dev nD) : W3 m ρ c (Proc.devRef .tc main_v4) = val_main_v5 (F := Ideal) :=
  ((not_written_by hostOps1 : StableHlo.after hostOps1 (W2 m ρ c) (Proc.devRef .tc main_v4) = W2 m ρ c (Proc.devRef .tc main_v4))).trans (w2_v4 m ρ c)
theorem w4_v4 (c : Dev nD) : W4 m ρ c (Proc.devRef .tc main_v4) = val_main_v5 (F := Ideal) :=
  (W4_of_ne m ρ c main_v4 (by decide)).trans (w3_v4 m ρ c)
theorem w5_v4 (c : Dev nD) : W5 m ρ c (Proc.devRef .tc main_v4) = val_main_v5 (F := Ideal) :=
  (W5_of_ne m ρ c main_v4 (by decide)).trans (w4_v4 m ρ c)
theorem w6_v4 (c : Dev nD) : W6 m ρ c (Proc.devRef .tc main_v4) = val_main_v5 (F := Ideal) :=
  ((not_written_by hostOps3 : StableHlo.after hostOps3 (W5 m ρ c) (Proc.devRef .tc main_v4) = W5 m ρ c (Proc.devRef .tc main_v4))).trans (w5_v4 m ρ c)
theorem w7_v4 (c : Dev nD) : W7 m ρ c (Proc.devRef .tc main_v4) = val_main_v5 (F := Ideal) :=
  (W7_of_ne m ρ c main_v4 (by decide)).trans (w6_v4 m ρ c)

theorem w1_v25 (c : Dev nD) : W1 m ρ c (Proc.devRef .tc main_v25) = val_main_v26 (F := Ideal) (arg m c main_arg1) := by
  show StableHlo.after hostOps0 (W0 m ρ c) (Proc.devRef .tc main_v25) = _
  after_results_simp
  rfl
theorem w2_v25 (c : Dev nD) : W2 m ρ c (Proc.devRef .tc main_v25) = val_main_v26 (F := Ideal) (arg m c main_arg1) :=
  (W2_of_ne m ρ c main_v25 (by decide)).trans (w1_v25 m ρ c)
theorem w3_v25 (c : Dev nD) : W3 m ρ c (Proc.devRef .tc main_v25) = val_main_v26 (F := Ideal) (arg m c main_arg1) :=
  ((not_written_by hostOps1 : StableHlo.after hostOps1 (W2 m ρ c) (Proc.devRef .tc main_v25) = W2 m ρ c (Proc.devRef .tc main_v25))).trans (w2_v25 m ρ c)
theorem w4_v25 (c : Dev nD) : W4 m ρ c (Proc.devRef .tc main_v25) = val_main_v26 (F := Ideal) (arg m c main_arg1) :=
  (W4_of_ne m ρ c main_v25 (by decide)).trans (w3_v25 m ρ c)
theorem w5_v25 (c : Dev nD) : W5 m ρ c (Proc.devRef .tc main_v25) = val_main_v26 (F := Ideal) (arg m c main_arg1) :=
  (W5_of_ne m ρ c main_v25 (by decide)).trans (w4_v25 m ρ c)

theorem w1_v28 (c : Dev nD) : W1 m ρ c (Proc.devRef .tc main_v28) = shapeCast S50000x1 (val_main_v41 (F := Ideal) (arg m c main_arg1)) shapeCasts_S50000_S50000x1 := by
  show StableHlo.after hostOps0 (W0 m ρ c) (Proc.devRef .tc main_v28) = _
  after_results_simp
  rfl
theorem w2_v28 (c : Dev nD) : W2 m ρ c (Proc.devRef .tc main_v28) = shapeCast S50000x1 (val_main_v41 (F := Ideal) (arg m c main_arg1)) shapeCasts_S50000_S50000x1 :=
  (W2_of_ne m ρ c main_v28 (by decide)).trans (w1_v28 m ρ c)
theorem w3_v28 (c : Dev nD) : W3 m ρ c (Proc.devRef .tc main_v28) = shapeCast S50000x1 (val_main_v41 (F := Ideal) (arg m c main_arg1)) shapeCasts_S50000_S50000x1 :=
  ((not_written_by hostOps1 : StableHlo.after hostOps1 (W2 m ρ c) (Proc.devRef .tc main_v28) = W2 m ρ c (Proc.devRef .tc main_v28))).trans (w2_v28 m ρ c)
/-- The degree column is an input window of the second region: a region leaves its input arrays as it found them. -/
theorem w4_v28 (c : Dev nD) : W4 m ρ c (Proc.devRef .tc main_v28) = shapeCast S50000x1 (val_main_v41 (F := Ideal) (arg m c main_arg1)) shapeCasts_S50000_S50000x1 :=
  ((W4_arr m ρ c 2).trans (((dat1 (V3 m ρ) c).arrAt_in 2 rfl _).trans (A_eq1 (V3 m ρ) c 2))).trans (w3_v28 m ρ c)
theorem w5_v28 (c : Dev nD) : W5 m ρ c (Proc.devRef .tc main_v28) = shapeCast S50000x1 (val_main_v41 (F := Ideal) (arg m c main_arg1)) shapeCasts_S50000_S50000x1 :=
  (W5_of_ne m ρ c main_v28 (by decide)).trans (w4_v28 m ρ c)
theorem w6_v28 (c : Dev nD) : W6 m ρ c (Proc.devRef .tc main_v28) = shapeCast S50000x1 (val_main_v41 (F := Ideal) (arg m c main_arg1)) shapeCasts_S50000_S50000x1 :=
  ((not_written_by hostOps3 : StableHlo.after hostOps3 (W5 m ρ c) (Proc.devRef .tc main_v28) = W5 m ρ c (Proc.devRef .tc main_v28))).trans (w5_v28 m ρ c)

theorem w1_arg0 (c : Dev nD) : W1 m ρ c (Proc.devRef .tc main_arg0) = arg m c main_arg0 :=
  (not_written_by hostOps0 : StableHlo.after hostOps0 (W0 m ρ c) (Proc.devRef .tc main_arg0) = W0 m ρ c (Proc.devRef .tc main_arg0)).trans rfl

theorem w1_arg3 (c : Dev nD) : W1 m ρ c (Proc.devRef .tc main_arg3) = arg m c main_arg3 :=
  (not_written_by hostOps0 : StableHlo.after hostOps0 (W0 m ρ c) (Proc.devRef .tc main_arg3) = W0 m ρ c (Proc.devRef .tc main_arg3)).trans rfl

theorem w1_arg4 (c : Dev nD) : W1 m ρ c (Proc.devRef .tc main_arg4) = arg m c main_arg4 :=
  (not_written_by hostOps0 : StableHlo.after hostOps0 (W0 m ρ c) (Proc.devRef .tc main_arg4) = W0 m ρ c (Proc.devRef .tc main_arg4)).trans rfl
theorem w2_arg4 (c : Dev nD) : W2 m ρ c (Proc.devRef .tc main_arg4) = arg m c main_arg4 :=
  (W2_of_ne m ρ c main_arg4 (by decide)).trans (w1_arg4 m ρ c)

theorem w1_arg5 (c : Dev nD) : W1 m ρ c (Proc.devRef .tc main_arg5) = arg m c main_arg5 :=
  (not_written_by hostOps0 : StableHlo.after hostOps0 (W0 m ρ c) (Proc.devRef .tc main_arg5) = W0 m ρ c (Proc.devRef .tc main_arg5)).trans rfl
theorem w2_arg5 (c : Dev nD) : W2 m ρ c (Proc.devRef .tc main_arg5) = arg m c main_arg5 :=
  (W2_of_ne m ρ c main_arg5 (by decide)).trans (w1_arg5 m ρ c)
theorem w3_arg5 (c : Dev nD) : W3 m ρ c (Proc.devRef .tc main_arg5) = arg m c main_arg5 :=
  ((not_written_by hostOps1 : StableHlo.after hostOps1 (W2 m ρ c) (Proc.devRef .tc main_arg5) = W2 m ρ c (Proc.devRef .tc main_arg5))).trans (w2_arg5 m ρ c)
theorem w4_arg5 (c : Dev nD) : W4 m ρ c (Proc.devRef .tc main_arg5) = arg m c main_arg5 :=
  (W4_of_ne m ρ c main_arg5 (by decide)).trans (w3_arg5 m ρ c)

theorem w1_arg6 (c : Dev nD) : W1 m ρ c (Proc.devRef .tc main_arg6) = arg m c main_arg6 :=
  (not_written_by hostOps0 : StableHlo.after hostOps0 (W0 m ρ c) (Proc.devRef .tc main_arg6) = W0 m ρ c (Proc.devRef .tc main_arg6)).trans rfl
theorem w2_arg6 (c : Dev nD) : W2 m ρ c (Proc.devRef .tc main_arg6) = arg m c main_arg6 :=
  (W2_of_ne m ρ c main_arg6 (by decide)).trans (w1_arg6 m ρ c)
theorem w3_arg6 (c : Dev nD) : W3 m ρ c (Proc.devRef .tc main_arg6) = arg m c main_arg6 :=
  ((not_written_by hostOps1 : StableHlo.after hostOps1 (W2 m ρ c) (Proc.devRef .tc main_arg6) = W2 m ρ c (Proc.devRef .tc main_arg6))).trans (w2_arg6 m ρ c)
theorem w4_arg6 (c : Dev nD) : W4 m ρ c (Proc.devRef .tc main_arg6) = arg m c main_arg6 :=
  (W4_of_ne m ρ c main_arg6 (by decide)).trans (w3_arg6 m ρ c)
theorem w5_arg6 (c : Dev nD) : W5 m ρ c (Proc.devRef .tc main_arg6) = arg m c main_arg6 :=
  (W5_of_ne m ρ c main_arg6 (by decide)).trans (w4_arg6 m ρ c)

theorem w1_arg9 (c : Dev nD) : W1 m ρ c (Proc.devRef .tc main_arg9) = arg m c main_arg9 :=
  (not_written_by hostOps0 : StableHlo.after hostOps0 (W0 m ρ c) (Proc.devRef .tc main_arg9) = W0 m ρ c (Proc.devRef .tc main_arg9)).trans rfl
theorem w2_arg9 (c : Dev nD) : W2 m ρ c (Proc.devRef .tc main_arg9) = arg m c main_arg9 :=
  (W2_of_ne m ρ c main_arg9 (by decide)).trans (w1_arg9 m ρ c)
theorem w3_arg9 (c : Dev nD) : W3 m ρ c (Proc.devRef .tc main_arg9) = arg m c main_arg9 :=
  ((not_written_by hostOps1 : StableHlo.after hostOps1 (W2 m ρ c) (Proc.devRef .tc main_arg9) = W2 m ρ c (Proc.devRef .tc main_arg9))).trans (w2_arg9 m ρ c)
theorem w4_arg9 (c : Dev nD) : W4 m ρ c (Proc.devRef .tc main_arg9) = arg m c main_arg9 :=
  (W4_of_ne m ρ c main_arg9 (by decide)).trans (w3_arg9 m ρ c)
theorem w5_arg9 (c : Dev nD) : W5 m ρ c (Proc.devRef .tc main_arg9) = arg m c main_arg9 :=
  (W5_of_ne m ρ c main_arg9 (by decide)).trans (w4_arg9 m ρ c)
theorem w6_arg9 (c : Dev nD) : W6 m ρ c (Proc.devRef .tc main_arg9) = arg m c main_arg9 :=
  ((not_written_by hostOps3 : StableHlo.after hostOps3 (W5 m ρ c) (Proc.devRef .tc main_arg9) = W5 m ρ c (Proc.devRef .tc main_arg9))).trans (w5_arg9 m ρ c)
theorem w7_arg9 (c : Dev nD) : W7 m ρ c (Proc.devRef .tc main_arg9) = arg m c main_arg9 :=
  (W7_of_ne m ρ c main_arg9 (by decide)).trans (w6_arg9 m ρ c)

theorem w1_arg7 (c : Dev nD) : W1 m ρ c (Proc.devRef .tc main_arg7) = arg m c main_arg7 :=
  (not_written_by hostOps0 : StableHlo.after hostOps0 (W0 m ρ c) (Proc.devRef .tc main_arg7) = W0 m ρ c (Proc.devRef .tc main_arg7)).trans rfl
theorem w2_arg7 (c : Dev nD) : W2 m ρ c (Proc.devRef .tc main_arg7) = arg m c main_arg7 :=
  (W2_of_ne m ρ c main_arg7 (by decide)).trans (w1_arg7 m ρ c)
theorem w3_arg7 (c : Dev nD) : W3 m ρ c (Proc.devRef .tc main_arg7) = arg m c main_arg7 :=
  ((not_written_by hostOps1 : StableHlo.after hostOps1 (W2 m ρ c) (Proc.devRef .tc main_arg7) = W2 m ρ c (Proc.devRef .tc main_arg7))).trans (w2_arg7 m ρ c)
theorem w4_arg7 (c : Dev nD) : W4 m ρ c (Proc.devRef .tc main_arg7) = arg m c main_arg7 :=
  (W4_of_ne m ρ c main_arg7 (by decide)).trans (w3_arg7 m ρ c)
theorem w5_arg7 (c : Dev nD) : W5 m ρ c (Proc.devRef .tc main_arg7) = arg m c main_arg7 :=
  (W5_of_ne m ρ c main_arg7 (by decide)).trans (w4_arg7 m ρ c)
theorem w6_arg7 (c : Dev nD) : W6 m ρ c (Proc.devRef .tc main_arg7) = arg m c main_arg7 :=
  ((not_written_by hostOps3 : StableHlo.after hostOps3 (W5 m ρ c) (Proc.devRef .tc main_arg7) = W5 m ρ c (Proc.devRef .tc main_arg7))).trans (w5_arg7 m ρ c)
theorem w7_arg7 (c : Dev nD) : W7 m ρ c (Proc.devRef .tc main_arg7) = arg m c main_arg7 :=
  (W7_of_ne m ρ c main_arg7 (by decide)).trans (w6_arg7 m ρ c)
theorem w8_arg7 (c : Dev nD) : W8 m ρ c (Proc.devRef .tc main_arg7) = arg m c main_arg7 :=
  ((not_written_by hostOps4 : StableHlo.after hostOps4 (W7 m ρ c) (Proc.devRef .tc main_arg7) = W7 m ρ c (Proc.devRef .tc main_arg7))).trans (w7_arg7 m ρ c)

theorem w1_arg8 (c : Dev nD) : W1 m ρ c (Proc.devRef .tc main_arg8) = arg m c main_arg8 :=
  (not_written_by hostOps0 : StableHlo.after hostOps0 (W0 m ρ c) (Proc.devRef .tc main_arg8) = W0 m ρ c (Proc.devRef .tc main_arg8)).trans rfl
theorem w2_arg8 (c : Dev nD) : W2 m ρ c (Proc.devRef .tc main_arg8) = arg m c main_arg8 :=
  (W2_of_ne m ρ c main_arg8 (by decide)).trans (w1_arg8 m ρ c)
theorem w3_arg8 (c : Dev nD) : W3 m ρ c (Proc.devRef .tc main_arg8) = arg m c main_arg8 :=
  ((not_written_by hostOps1 : StableHlo.after hostOps1 (W2 m ρ c) (Proc.devRef .tc main_arg8) = W2 m ρ c (Proc.devRef .tc main_arg8))).trans (w2_arg8 m ρ c)
theorem w4_arg8 (c : Dev nD) : W4 m ρ c (Proc.devRef .tc main_arg8) = arg m c main_arg8 :=
  (W4_of_ne m ρ c main_arg8 (by decide)).trans (w3_arg8 m ρ c)
theorem w5_arg8 (c : Dev nD) : W5 m ρ c (Proc.devRef .tc main_arg8) = arg m c main_arg8 :=
  (W5_of_ne m ρ c main_arg8 (by decide)).trans (w4_arg8 m ρ c)
theorem w6_arg8 (c : Dev nD) : W6 m ρ c (Proc.devRef .tc main_arg8) = arg m c main_arg8 :=
  ((not_written_by hostOps3 : StableHlo.after hostOps3 (W5 m ρ c) (Proc.devRef .tc main_arg8) = W5 m ρ c (Proc.devRef .tc main_arg8))).trans (w5_arg8 m ρ c)
theorem w7_arg8 (c : Dev nD) : W7 m ρ c (Proc.devRef .tc main_arg8) = arg m c main_arg8 :=
  (W7_of_ne m ρ c main_arg8 (by decide)).trans (w6_arg8 m ρ c)
theorem w8_arg8 (c : Dev nD) : W8 m ρ c (Proc.devRef .tc main_arg8) = arg m c main_arg8 :=
  ((not_written_by hostOps4 : StableHlo.after hostOps4 (W7 m ρ c) (Proc.devRef .tc main_arg8) = W7 m ρ c (Proc.devRef .tc main_arg8))).trans (w7_arg8 m ρ c)

theorem w1_arg2 (c : Dev nD) : W1 m ρ c (Proc.devRef .tc main_arg2) = arg m c main_arg2 :=
  (not_written_by hostOps0 : StableHlo.after hostOps0 (W0 m ρ c) (Proc.devRef .tc main_arg2) = W0 m ρ c (Proc.devRef .tc main_arg2)).trans rfl
theorem w2_arg2 (c : Dev nD) : W2 m ρ c (Proc.devRef .tc main_arg2) = arg m c main_arg2 :=
  (W2_of_ne m ρ c main_arg2 (by decide)).trans (w1_arg2 m ρ c)
theorem w3_arg2 (c : Dev nD) : W3 m ρ c (Proc.devRef .tc main_arg2) = arg m c main_arg2 :=
  ((not_written_by hostOps1 : StableHlo.after hostOps1 (W2 m ρ c) (Proc.devRef .tc main_arg2) = W2 m ρ c (Proc.devRef .tc main_arg2))).trans (w2_arg2 m ρ c)
theorem w4_arg2 (c : Dev nD) : W4 m ρ c (Proc.devRef .tc main_arg2) = arg m c main_arg2 :=
  (W4_of_ne m ρ c main_arg2 (by decide)).trans (w3_arg2 m ρ c)
theorem w5_arg2 (c : Dev nD) : W5 m ρ c (Proc.devRef .tc main_arg2) = arg m c main_arg2 :=
  (W5_of_ne m ρ c main_arg2 (by decide)).trans (w4_arg2 m ρ c)
theorem w6_arg2 (c : Dev nD) : W6 m ρ c (Proc.devRef .tc main_arg2) = arg m c main_arg2 :=
  ((not_written_by hostOps3 : StableHlo.after hostOps3 (W5 m ρ c) (Proc.devRef .tc main_arg2) = W5 m ρ c (Proc.devRef .tc main_arg2))).trans (w5_arg2 m ρ c)
theorem w7_arg2 (c : Dev nD) : W7 m ρ c (Proc.devRef .tc main_arg2) = arg m c main_arg2 :=
  (W7_of_ne m ρ c main_arg2 (by decide)).trans (w6_arg2 m ρ c)
theorem w8_arg2 (c : Dev nD) : W8 m ρ c (Proc.devRef .tc main_arg2) = arg m c main_arg2 :=
  ((not_written_by hostOps4 : StableHlo.after hostOps4 (W7 m ρ c) (Proc.devRef .tc main_arg2) = W7 m ρ c (Proc.devRef .tc main_arg2))).trans (w7_arg2 m ρ c)
theorem w9_arg2 (c : Dev nD) : W9 m ρ c (Proc.devRef .tc main_arg2) = arg m c main_arg2 :=
  (W9_of_ne m ρ c main_arg2 (by decide)).trans (w8_arg2 m ρ c)

end Cert.KernelIdeal.Carried

end
-- ==== Proof.KernelRun.lean ====
/-
  The idealized kernel's run, with its result named.

  @main of the kernel is ten segments: six stretches of host operations and five tiled regions (a matrix product,
  a bias-and-degree combine with a rectifier, a second product, a second combine, and a two-product sum). The
  buffer contents at each boundary are a fold: a host stretch rewrites the buffers its operations write, a region
  rewrites its arrays to what its write-backs leave and keeps everything else. After the last stretch the contents
  are `W10`. Every weakly fair execution terminates in a state whose unscoped buffers hold `W10`; in particular the
  result buffer holds `W10` at the result's reference, and the ten arguments hold what they held at launch.
-/
import proofs.«161812_j81604378624011_1_alg».proof.Proof.Gen.KernelIdeal.Frame

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last boundary's contents and every argument as launched. The segments, the launch element and the thread
    states are those of the frame module this one imports; read off the final state is one buffer more than the
    arguments: the result. -/
theorem run_result : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Valued

end
-- ==== Proof.Bodies.lean ====
/-
  The three tile bodies, read at an index of the tile.

  A tile is 5000 rows by 128 columns. The product body multiplies the tile of the left operand by a whole
  128 × 128 weight: its entry at (p, q) is the sum over k of left (p, k) · weight (k, q); the change of float format
  on the way in is the identity on extended reals and the accumulator starts at zero. The combine body is
  max ((a + h · d) + b, 0) entry by entry, where d is a column (one value per row) and b a row (one value per
  column). The two-product body is (left₁ · W₁ + left₂ · W₂) + b with b a row.
-/
import proofs.«161812_j81604378624011_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.TcCoe Idealize.ShloMosaic.ValueIdx
open Cert.KernelIdeal Cert.KernelIdeal.Gen

/-! ## The tile product -/

theorem tileDot_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tileDot_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem tileDot_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem tileDot_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile product into a zero accumulator, at (p, q): the sum over the 128 contracted positions. -/
theorem tileDot_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q) = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact tileDot_lhs0 _ _
    | ⟨1, _⟩ => exact (tileDot_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (tileDot_rhs0 _ _).trans hk
    | ⟨1, _⟩ => exact tileDot_rhs1 _ _)
  rw [el, er]

/-! ## A column and a row spread over the tile -/

/-- A column [5000, 1] spread over [5000, 128] reads, at (p, q), the column's entry of row p. -/
theorem spreadCol_apply (v : S5000x1.Idx → EReal) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row [1, 128] spread over [5000, 128] reads, at (p, q), the row's entry of column q. -/
theorem spreadRow_apply (v : S1x128.Idx → EReal) (h : S1x128.Broadcasts S5000x128) (p : Fin 5000) (q : Fin 128) :
    broadcastTo S5000x128 v h (ix2 p q) = v (ix2 (0 : Fin 1) q) :=
  broadcastTo_1b_ab_apply v h p q

/-! ## The three bodies -/

/-- The first product body at (p, q). -/
theorem product0_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  exact tileDot_apply _ _ p q

/-- The second product body at (p, q): the same sum (its left tile passes through an identity reshape first). -/
theorem product2_apply (x : Vec Ideal S5000x128 .f32) (w : Vec Ideal S128x128 .f32) (p : Fin 5000) (q : Fin 128) :
    k2_pay1 x w (ix2 p q) = ∑ k : Fin 128, x (ix2 p k) * w (ix2 k q) := by
  unfold k2_pay1
  rw [shapeCast_self]
  exact tileDot_apply _ _ p q

/-- The first combine body at (p, q). -/
theorem combine1_apply (a h : Vec Ideal S5000x128 .f32) (d : Vec Ideal S5000x1 .f32) (b : Vec Ideal S1x128 .f32) (p : Fin 5000) (q : Fin 128) :
    k1_pay1 a h d b (ix2 p q)
      = max ((a (ix2 p q) + h (ix2 p q) * d (ix2 p (0 : Fin 1))) + b (ix2 (0 : Fin 1) q)) (Ideal.ofBits .f32 0x00000000#32) := by
  unfold k1_pay1
  simp only [shapeCast_self]
  rw [maximumf_apply, addf_apply, addf_apply, mulf_apply, spreadCol_apply, spreadRow_apply]
  rfl

/-- The second combine body at (p, q). -/
theorem combine3_apply (a h : Vec Ideal S5000x128 .f32) (d : Vec Ideal S5000x1 .f32) (b : Vec Ideal S1x128 .f32) (p : Fin 5000) (q : Fin 128) :
    k3_pay1 a h d b (ix2 p q)
      = max ((a (ix2 p q) + h (ix2 p q) * d (ix2 p (0 : Fin 1))) + b (ix2 (0 : Fin 1) q)) (Ideal.ofBits .f32 0x00000000#32) := by
  unfold k3_pay1
  simp only [shapeCast_self]
  rw [maximumf_apply, addf_apply, addf_apply, mulf_apply, spreadCol_apply, spreadRow_apply]
  rfl

/-- The two-product body at (p, q). -/
theorem twoProducts_apply (x : Vec Ideal S5000x128 .f32) (wl : Vec Ideal S128x128 .f32) (y : Vec Ideal S5000x128 .f32) (wr : Vec Ideal S128x128 .f32)
    (b : Vec Ideal S1x128 .f32) (p : Fin 5000) (q : Fin 128) :
    k4_pay1 x wl y wr b (ix2 p q)
      = ((∑ k : Fin 128, x (ix2 p k) * wl (ix2 k q)) + ∑ k : Fin 128, y (ix2 p k) * wr (ix2 k q)) + b (ix2 (0 : Fin 1) q) := by
  unfold k4_pay1
  simp only [shapeCast_self]
  rw [addf_apply, addf_apply, spreadRow_apply, tileDot_apply, tileDot_apply]
  rfl

end Cert.KernelIdeal.Bodies

end
-- ==== Proof.Layers.lean ====
/-
  What the five tiled regions compute, as whole-array functions.

  Over arrays of 50000 rows and 128 columns on the extended reals:
  `rowsTimes x w` is the matrix product, entry (r, c) the sum over k of x (r, k) · w (k, c);
  `combine a h d b` is max ((a + h · d) + b, 0) entry by entry, d one value per row and b one value per column
  (the rectified sum of a neighbourhood aggregate, a degree-scaled self term and a bias);
  `twoProducts x wl y wr b` is (x · wl + y · wr) + b with b one value per column.
  None of these needs the entries to be finite: only sums, products and a maximum, in a fixed order.
-/
import Idealize.ShloMosaic.PureOps.Ideal
import Idealize.ShloMosaic.Lib.ValueIdx

noncomputable section

namespace Cert.Layers

open Idealize.ShloMosaic Idealize.ShloMosaic.ValueIdx

/-- Nodes by features, the weights, a column per node and a row per feature. -/
abbrev NodeFeat : Shape := ⟨2, ![50000, 128]⟩
abbrev Weight : Shape := ⟨2, ![128, 128]⟩
abbrev NodeCol : Shape := ⟨2, ![50000, 1]⟩
abbrev FeatRow : Shape := ⟨2, ![1, 128]⟩

/-- The matrix product of a node-feature array with a weight. -/
def rowsTimes (x : NodeFeat.Idx → EReal) (w : Weight.Idx → EReal) : NodeFeat.Idx → EReal :=
  fun i => ∑ k : Fin 128, x (ix2 (i 0) k) * w (ix2 k (i 1))

/-- Aggregate plus degree-scaled self term plus bias, rectified. -/
def combine (a h : NodeFeat.Idx → EReal) (d : NodeCol.Idx → EReal) (b : FeatRow.Idx → EReal) : NodeFeat.Idx → EReal :=
  fun i => max ((a i + h i * d (ix2 (i 0) (0 : Fin 1))) + b (ix2 (0 : Fin 1) (i 1))) (Ideal.ofBits .f32 0x00000000#32)

/-- Two products summed, plus a bias per feature. -/
def twoProducts (x : NodeFeat.Idx → EReal) (wl : Weight.Idx → EReal) (y : NodeFeat.Idx → EReal) (wr : Weight.Idx → EReal)
    (b : FeatRow.Idx → EReal) : NodeFeat.Idx → EReal :=
  fun i => (rowsTimes x wl i + rowsTimes y wr i) + b (ix2 (0 : Fin 1) (i 1))

end Cert.Layers

end
-- ==== Proof.FirstProduct.lean ====
/-
  The first tiled region: node features times the first layer's weight.

  The grid has ten points; point t stages rows 5000·t … 5000·t + 4999 of the left operand and the whole weight, and
  writes back the same rows of the output. Each written tile is the corresponding rows of ONE whole-array function,
  the matrix product, and the ten tiles cover the output: so after the region the output array IS the product.
-/
import proofs.«161812_j81604378624011_1_alg».proof.Proof.Gen.KernelIdeal.Frame
import proofs.«161812_j81604378624011_1_alg».proof.Proof.Bodies
import proofs.«161812_j81604378624011_1_alg».proof.Proof.Layers
import Idealize.ShloMosaic.Lib.Pipeline.Value

set_option maxRecDepth 16384

noncomputable section

namespace Cert.KernelIdeal.FirstProduct

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Layers

variable (V : (c : Dev nD) → (b : Ref sig .tc) → Buf (Elt Ideal) ((c : Thread nD τ).loc b))

theorem origin : (![0, 0] : Fin 2 → Nat) = fun _ => 0 := funext fun a => by fin_cases a <;> rfl

/-- Over the ten grid points: the left operand's tile sits at the output tile's row block and at column block 0,
    the weight is always its one whole block, and the output's row block is one of 0 … 9. -/
theorem blocks : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block 0 … 9 is some point's. -/
theorem blocks_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is tile `t` of the whole product: row p of the tile is row (block · 5000 + p) of the
    array, and an entry of the product depends on that row of the left operand and on the whole weight. -/
theorem flushed_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blocks t
  funext j
  obtain ⟨p, q, rfl⟩ : ∃ (p : Fin 5000) (q : Fin 128), j = ix2 p q := ⟨j 0, j 1, eq_ix2 j⟩
  refine (product0_apply _ _ p q).trans ?_
  show _ = rowsTimes (V c main_arg0) (V c main_arg3) (((cfg0.win 2).blk t).view.emb (ix2 p q))
  unfold rowsTimes
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q) = V c main_arg3 (ix2 k ((((cfg0.win 2).blk t).view.emb (ix2 p q)) 1)) := by
    show V c main_arg3 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the array is in point `t`'s tile iff each coordinate is in the tile's range on its axis. -/
theorem mem_tile (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The ten tiles cover the array: row r lies in the tile of row block r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blocks_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the whole product of the two arrays the region was entered with. -/
theorem array (c : Dev nD) : (dat0 V c).arrAt 2 cfg0.N = rowsTimes (V c main_arg0) (V c main_arg3) :=
  (dat0 V c).arrAt_eq_of_cover 2 _ (fun t _ => flushed_eq V c t) cover

end Cert.KernelIdeal.FirstProduct

end
-- ==== Proof.FirstCombine.lean ====
/-
  The second tiled region: the first convolution layer's combine.

  Ten points; point t stages rows 5000·t … 5000·t + 4999 of the neighbourhood aggregate, of the layer's product and
  of the reciprocal-degree column, and the whole bias row, and writes back the same rows of
  max ((aggregate + product · degree column) + bias row, 0). Each written tile is the corresponding rows of ONE
  whole-array function and the tiles cover the output, so after the region the output array is that function.
-/
import proofs.«161812_j81604378624011_1_alg».proof.Proof.Gen.KernelIdeal.Frame
import proofs.«161812_j81604378624011_1_alg».proof.Proof.Bodies
import proofs.«161812_j81604378624011_1_alg».proof.Proof.Layers
import Idealize.ShloMosaic.Lib.Pipeline.Value

set_option maxRecDepth 16384

noncomputable section

namespace Cert.KernelIdeal.FirstCombine

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Layers

variable (V : (c : Dev nD) → (b : Ref sig .tc) → Buf (Elt Ideal) ((c : Thread nD τ).loc b))

theorem origin : (![0, 0] : Fin 2 → Nat) = fun _ => 0 := funext fun a => by fin_cases a <;> rfl

/-- Over the ten grid points: the aggregate, the product and the degree column are staged at the output tile's row
    block, the bias row is always its one whole block, every column block is 0, and the row block is one of 0 … 9. -/
theorem blocks : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block 0 … 9 is some point's. -/
theorem blocks_onto : ∀ q0 : Fin 10, ∃ t : Fin cfg1.N, win1_4.index t = ![q0.val, 0] :=
  (by decide +kernel : ∀ q0 : Fin 10, ∃ t : Fin grid1.N, win1_4.index t = ![q0.val, 0])

/-- What point `t` writes back is tile `t` of the whole combine: entry (p, q) of the tile is entry
    (block · 5000 + p, q) of the array, and it depends on that entry of the aggregate and of the product, on the degree
    column at that row and on the bias row at that column. -/
theorem flushed_eq (c : Dev nD) (t : Fin cfg1.N) :
    (dat1 V c).flushed 4 t
      = ((cfg1.win 4).blk t).view.read (Elt Ideal) (combine (V c main_v42) (V c main_v29) (V c main_v28) (V c main_v43)) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := blocks t
  funext j
  obtain ⟨p, q, rfl⟩ : ∃ (p : Fin 5000) (q : Fin 128), j = ix2 p q := ⟨j 0, j 1, eq_ix2 j⟩
  refine (combine1_apply _ _ _ _ p q).trans ?_
  show _ = combine (V c main_v42) (V c main_v29) (V c main_v28) (V c main_v43) (((cfg1.win 4).blk t).view.emb (ix2 p q))
  unfold combine
  have ha : iblk1 V c 0 t (ix2 p q) = V c main_v42 (((cfg1.win 4).blk t).view.emb (ix2 p q)) := by
    show V c main_v42 (((cfg1.win 0).blk t).view.emb (ix2 p q)) = _
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have hh : iblk1 V c 1 t (ix2 p q) = V c main_v29 (((cfg1.win 4).blk t).view.emb (ix2 p q)) := by
    show V c main_v29 (((cfg1.win 1).blk t).view.emb (ix2 p q)) = _
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have hd : iblk1 V c 2 t (ix2 p (0 : Fin 1))
      = V c main_v28 (ix2 ((((cfg1.win 4).blk t).view.emb (ix2 p q)) 0) (0 : Fin 1)) := by
    show V c main_v28 (((cfg1.win 2).blk t).view.emb (ix2 p (0 : Fin 1))) = _
    refine congrArg _ (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have hb : iblk1 V c 3 t (ix2 (0 : Fin 1) q)
      = V c main_v43 (ix2 (0 : Fin 1) ((((cfg1.win 4).blk t).view.emb (ix2 p q)) 1)) := by
    show V c main_v43 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [ha, hh, hd, hb]

/-- An index of the array is in point `t`'s tile iff each coordinate is in the tile's range on its axis. -/
theorem mem_tile (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- The ten tiles cover the array: row r lies in the tile of row block r / 5000. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := blocks_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_tile]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region is the whole combine of the four arrays the region was entered with. -/
theorem array (c : Dev nD) :
    (dat1 V c).arrAt 4 cfg1.N = combine (V c main_v42) (V c main_v29) (V c main_v28) (V c main_v43) :=
  (dat1 V c).arrAt_eq_of_cover 4 _ (fun t _ => flushed_eq V c t) cover

end Cert.KernelIdeal.FirstCombine

end
-- ==== Proof.SecondProduct.lean ====
/-
  The third tiled region: the first layer's output times the second layer's weight.

  As in the first product: ten points, point t stages rows 5000·t … 5000·t + 4999 of the left operand and the whole
  weight and writes back the same rows of the output. Each written tile is the corresponding rows of the whole matrix
  product and the tiles cover the output, so after the region the output array is the product.
-/
import proofs.«161812_j81604378624011_1_alg».proof.Proof.Gen.KernelIdeal.Frame
import proofs.«161812_j81604378624011_1_alg».proof.Proof.Bodies
import proofs.«161812_j81604378624011_1_alg».proof.Proof.Layers
import Idealize.ShloMosaic.Lib.Pipeline.Value

set_option maxRecDepth 16384

noncomputable section

namespace Cert.KernelIdeal.SecondProduct

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Layers

variable (V : (c : Dev nD) → (b : Ref sig .tc) → Buf (Elt Ideal) ((c : Thread nD τ).loc b))

theorem origin : (![0, 0] : Fin 2 → Nat) = fun _ => 0 := funext fun a => by fin_cases a <;> rfl

/-- Over the ten grid points: the left operand's tile sits at the output tile's row block and at column block 0,
    the weight is always its one whole block, and the output's row block is one of 0 … 9. -/
theorem blocks : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block 0 … 9 is some point's. -/
theorem blocks_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is tile `t` of the whole product: row p of the tile is row (block · 5000 + p) of the
    array, and an entry of the product depends on that row of the left operand and on the whole weight. -/
theorem flushed_eq (c : Dev nD) (t : Fin cfg2.N) :
    (dat2 V c).flushed 2 t = ((cfg2.win 2).blk t).view.read (Elt Ideal) (rowsTimes (V c main_v44) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blocks t
  funext j
  obtain ⟨p, q, rfl⟩ : ∃ (p : Fin 5000) (q : Fin 128), j = ix2 p q := ⟨j 0, j 1, eq_ix2 j⟩
  refine (product2_apply _ _ p q).trans ?_
  show _ = rowsTimes (V c main_v44) (V c main_arg5) (((cfg2.win 2).blk t).view.emb (ix2 p q))
  unfold rowsTimes
  refine Finset.sum_congr rfl fun k _ => ?_
  have hx : iblk2 V c 0 t (ix2 p k) = V c main_v44 (ix2 ((((cfg2.win 2).blk t).view.emb (ix2 p q)) 0) k) := by
    show V c main_v44 (((cfg2.win 0).blk t).view.emb (ix2 p k)) = _
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q) = V c main_arg5 (ix2 k ((((cfg2.win 2).blk t).view.emb (ix2 p q)) 1)) := by
    show V c main_arg5 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hx, hw]

/-- An index of the array is in point `t`'s tile iff each coordinate is in the tile's range on its axis. -/
theorem mem_tile (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- The ten tiles cover the array: row r lies in the tile of row block r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blocks_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is the whole product of the two arrays the region was entered with. -/
theorem array (c : Dev nD) : (dat2 V c).arrAt 2 cfg2.N = rowsTimes (V c main_v44) (V c main_arg5) :=
  (dat2 V c).arrAt_eq_of_cover 2 _ (fun t _ => flushed_eq V c t) cover

end Cert.KernelIdeal.SecondProduct

end
-- ==== Proof.SecondCombine.lean ====
/-
  The fourth tiled region: the second convolution layer's combine.

  As in the first combine: point t stages rows 5000·t … 5000·t + 4999 of the aggregate, of the layer's product and
  of the reciprocal-degree column, and the whole bias row, and writes back the same rows of
  max ((aggregate + product · degree column) + bias row, 0); the tiles cover the output, so after the region the
  output array is that whole-array function.
-/
import proofs.«161812_j81604378624011_1_alg».proof.Proof.Gen.KernelIdeal.Frame
import proofs.«161812_j81604378624011_1_alg».proof.Proof.Bodies
import proofs.«161812_j81604378624011_1_alg».proof.Proof.Layers
import Idealize.ShloMosaic.Lib.Pipeline.Value

set_option maxRecDepth 16384

noncomputable section

namespace Cert.KernelIdeal.SecondCombine

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Layers

variable (V : (c : Dev nD) → (b : Ref sig .tc) → Buf (Elt Ideal) ((c : Thread nD τ).loc b))

theorem origin : (![0, 0] : Fin 2 → Nat) = fun _ => 0 := funext fun a => by fin_cases a <;> rfl

/-- Over the ten grid points: the aggregate, the product and the degree column are staged at the output tile's row
    block, the bias row is always its one whole block, every column block is 0, and the row block is one of 0 … 9. -/
theorem blocks : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every row block 0 … 9 is some point's. -/
theorem blocks_onto : ∀ q0 : Fin 10, ∃ t : Fin cfg3.N, win3_4.index t = ![q0.val, 0] :=
  (by decide +kernel : ∀ q0 : Fin 10, ∃ t : Fin grid3.N, win3_4.index t = ![q0.val, 0])

/-- What point `t` writes back is tile `t` of the whole combine: entry (p, q) of the tile is entry
    (block · 5000 + p, q) of the array, and it depends on that entry of the aggregate and of the product, on the degree
    column at that row and on the bias row at that column. -/
theorem flushed_eq (c : Dev nD) (t : Fin cfg3.N) :
    (dat3 V c).flushed 4 t
      = ((cfg3.win 4).blk t).view.read (Elt Ideal) (combine (V c main_v58) (V c main_v45) (V c main_v28) (V c main_v59)) := by
  show (cfg3.win 4).cut (grid3.coords t) ((dat3 V c).after 4 t) = _
  rw [after3_4]
  unfold out3_4
  rw [View.canon_unit_zero origin]
  simp only [View.ld_unit_zero (S := S5000x128) origin, View.ld_unit_zero (S := S5000x1) origin, View.ld_unit_zero (S := S1x128) origin]
  obtain ⟨e0, e1, e2, e3, e4, e5, e6, e7, e8, e9⟩ := blocks t
  funext j
  obtain ⟨p, q, rfl⟩ : ∃ (p : Fin 5000) (q : Fin 128), j = ix2 p q := ⟨j 0, j 1, eq_ix2 j⟩
  refine (combine3_apply _ _ _ _ p q).trans ?_
  show _ = combine (V c main_v58) (V c main_v45) (V c main_v28) (V c main_v59) (((cfg3.win 4).blk t).view.emb (ix2 p q))
  unfold combine
  have ha : iblk3 V c 0 t (ix2 p q) = V c main_v58 (((cfg3.win 4).blk t).view.emb (ix2 p q)) := by
    show V c main_v58 (((cfg3.win 0).blk t).view.emb (ix2 p q)) = _
    refine congrArg _ (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have hh : iblk3 V c 1 t (ix2 p q) = V c main_v45 (((cfg3.win 4).blk t).view.emb (ix2 p q)) := by
    show V c main_v45 (((cfg3.win 1).blk t).view.emb (ix2 p q)) = _
    refine congrArg _ (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have hd : iblk3 V c 2 t (ix2 p (0 : Fin 1))
      = V c main_v28 (ix2 ((((cfg3.win 4).blk t).view.emb (ix2 p q)) 0) (0 : Fin 1)) := by
    show V c main_v28 (((cfg3.win 2).blk t).view.emb (ix2 p (0 : Fin 1))) = _
    refine congrArg _ (funext fun a => Fin.ext ?_)
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have hb : iblk3 V c 3 t (ix2 (0 : Fin 1) q)
      = V c main_v59 (ix2 (0 : Fin 1) ((((cfg3.win 4).blk t).view.emb (ix2 p q)) 1)) := by
    show V c main_v59 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  rw [ha, hh, hd, hb]

/-- An index of the array is in point `t`'s tile iff each coordinate is in the tile's range on its axis. -/
theorem mem_tile (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v60).slice (win3_4.rect t)).set ↔ _
  rw [View.set_slice_whole, Rect.mem_set_unit]
  exact Iff.rfl

/-- The ten tiles cover the array: row r lies in the tile of row block r / 5000. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := blocks_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_tile]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region is the whole combine of the four arrays the region was entered with. -/
theorem array (c : Dev nD) :
    (dat3 V c).arrAt 4 cfg3.N = combine (V c main_v58) (V c main_v45) (V c main_v28) (V c main_v59) :=
  (dat3 V c).arrAt_eq_of_cover 4 _ (fun t _ => flushed_eq V c t) cover

end Cert.KernelIdeal.SecondCombine

end
-- ==== Proof.LastLayer.lean ====
/-
  The fifth tiled region: the last layer, two products and a bias.

  Ten points; point t stages rows 5000·t … 5000·t + 4999 of the neighbourhood mean and of the layer's input, the two
  whole weights and the whole bias row, and writes back the same rows of (mean · W₁ + input · W₂) + bias row. Each
  written tile is the corresponding rows of ONE whole-array function and the tiles cover the output, so after the
  region the output array is that function.
-/
import proofs.«161812_j81604378624011_1_alg».proof.Proof.Gen.KernelIdeal.Frame
import proofs.«161812_j81604378624011_1_alg».proof.Proof.Bodies
import proofs.«161812_j81604378624011_1_alg».proof.Proof.Layers
import Idealize.ShloMosaic.Lib.Pipeline.Value

set_option maxRecDepth 16384

noncomputable section

namespace Cert.KernelIdeal.LastLayer

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Layers

variable (V : (c : Dev nD) → (b : Ref sig .tc) → Buf (Elt Ideal) ((c : Thread nD τ).loc b))

theorem origin : (![0, 0] : Fin 2 → Nat) = fun _ => 0 := funext fun a => by fin_cases a <;> rfl

/-- Over the ten grid points: the mean and the layer's input are staged at the output tile's row block, the two
    weights and the bias row are always their one whole block, every column block is 0, the row block is one of 0 … 9. -/
theorem blocks : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 9 :=
  (by decide +kernel : ∀ t : Fin grid4.N, _)

/-- Every row block 0 … 9 is some point's. -/
theorem blocks_onto : ∀ q0 : Fin 10, ∃ t : Fin cfg4.N, win4_5.index t = ![q0.val, 0] :=
  (by decide +kernel : ∀ q0 : Fin 10, ∃ t : Fin grid4.N, win4_5.index t = ![q0.val, 0])

set_option maxHeartbeats 1600000 in
/-- What point `t` writes back is tile `t` of the whole function: entry (p, q) of the tile is entry
    (block · 5000 + p, q) of the array; it depends on that row of the mean and of the input, on the whole weights and on
    the bias row at that column. -/
theorem flushed_eq (c : Dev nD) (t : Fin cfg4.N) :
    (dat4 V c).flushed 5 t
      = ((cfg4.win 5).blk t).view.read (Elt Ideal)
          (twoProducts (V c main_v78) (V c main_arg7) (V c main_v60) (V c main_arg8) (V c main_v79)) := by
  show (cfg4.win 5).cut (grid4.coords t) ((dat4 V c).after 5 t) = _
  rw [after4_5]
  unfold out4_5
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9, e10, e11⟩ := blocks t
  funext j
  obtain ⟨p, q, rfl⟩ : ∃ (p : Fin 5000) (q : Fin 128), j = ix2 p q := ⟨j 0, j 1, eq_ix2 j⟩
  refine (twoProducts_apply _ _ _ _ _ p q).trans ?_
  show _ = twoProducts (V c main_v78) (V c main_arg7) (V c main_v60) (V c main_arg8) (V c main_v79) (((cfg4.win 5).blk t).view.emb (ix2 p q))
  unfold twoProducts rowsTimes
  have hx : ∀ k : Fin 128, iblk4 V c 0 t (ix2 p k) = V c main_v78 (ix2 ((((cfg4.win 5).blk t).view.emb (ix2 p q)) 0) k) := fun k => by
    show V c main_v78 (((cfg4.win 0).blk t).view.emb (ix2 p k)) = _
    refine congrArg (V c main_v78) (funext fun a => Fin.ext ?_)
    match a with
    | ⟨0, _⟩ => show win4_0.index t (0 : Fin 2) * 5000 + 1 * p.val = win4_5.index t (0 : Fin 2) * 5000 + 1 * p.val; omega
    | ⟨1, _⟩ => show win4_0.index t (1 : Fin 2) * 128 + 1 * k.val = k.val; omega
  have hy : ∀ k : Fin 128, iblk4 V c 1 t (ix2 p k) = V c main_v60 (ix2 ((((cfg4.win 5).blk t).view.emb (ix2 p q)) 0) k) := fun k => by
    show V c main_v60 (((cfg4.win 1).blk t).view.emb (ix2 p k)) = _
    refine congrArg (V c main_v60) (funext fun a => Fin.ext ?_)
    match a with
    | ⟨0, _⟩ => show win4_1.index t (0 : Fin 2) * 5000 + 1 * p.val = win4_5.index t (0 : Fin 2) * 5000 + 1 * p.val; omega
    | ⟨1, _⟩ => show win4_1.index t (1 : Fin 2) * 128 + 1 * k.val = k.val; omega
  have hwl : ∀ k : Fin 128, iblk4 V c 2 t (ix2 k q) = V c main_arg7 (ix2 k ((((cfg4.win 5).blk t).view.emb (ix2 p q)) 1)) := fun k => by
    show V c main_arg7 (((cfg4.win 2).blk t).view.emb (ix2 k q)) = _
    refine congrArg (V c main_arg7) (funext fun a => Fin.ext ?_)
    match a with
    | ⟨0, _⟩ => show win4_2.index t (0 : Fin 2) * 128 + 1 * k.val = k.val; omega
    | ⟨1, _⟩ => show win4_2.index t (1 : Fin 2) * 128 + 1 * q.val = win4_5.index t (1 : Fin 2) * 128 + 1 * q.val; omega
  have hwr : ∀ k : Fin 128, iblk4 V c 3 t (ix2 k q) = V c main_arg8 (ix2 k ((((cfg4.win 5).blk t).view.emb (ix2 p q)) 1)) := fun k => by
    show V c main_arg8 (((cfg4.win 3).blk t).view.emb (ix2 k q)) = _
    refine congrArg (V c main_arg8) (funext fun a => Fin.ext ?_)
    match a with
    | ⟨0, _⟩ => show win4_3.index t (0 : Fin 2) * 128 + 1 * k.val = k.val; omega
    | ⟨1, _⟩ => show win4_3.index t (1 : Fin 2) * 128 + 1 * q.val = win4_5.index t (1 : Fin 2) * 128 + 1 * q.val; omega
  have hb : iblk4 V c 4 t (ix2 (0 : Fin 1) q)
      = V c main_v79 (ix2 (0 : Fin 1) ((((cfg4.win 5).blk t).view.emb (ix2 p q)) 1)) := by
    show V c main_v79 (((cfg4.win 4).blk t).view.emb (ix2 (0 : Fin 1) q)) = _
    refine congrArg (V c main_v79) (funext fun a => Fin.ext ?_)
    match a with
    | ⟨0, _⟩ => show win4_4.index t (0 : Fin 2) * 1 + 1 * 0 = 0; omega
    | ⟨1, _⟩ => show win4_4.index t (1 : Fin 2) * 128 + 1 * q.val = win4_5.index t (1 : Fin 2) * 128 + 1 * q.val; omega
  rw [hb]
  refine congrArg (· + _) ?_
  refine congrArg₂ (· + ·) (Finset.sum_congr rfl fun k _ => ?_) (Finset.sum_congr rfl fun k _ => ?_)
  · rw [hx k, hwl k]
  · rw [hy k, hwr k]

/-- An index of the array is in point `t`'s tile iff each coordinate is in the tile's range on its axis. -/
theorem mem_tile (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v80).slice (win4_5.rect t)).set ↔ _
  rw [View.set_slice_whole, Rect.mem_set_unit]
  exact Iff.rfl

/-- The ten tiles cover the array: row r lies in the tile of row block r / 5000. -/
theorem cover (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := blocks_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_tile]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The output array after the region is that whole-array function of the five arrays the region was entered with. -/
theorem array (c : Dev nD) :
    (dat4 V c).arrAt 5 cfg4.N = twoProducts (V c main_v78) (V c main_arg7) (V c main_v60) (V c main_arg8) (V c main_v79) :=
  (dat4 V c).arrAt_eq_of_cover 5 _ (fun t _ => flushed_eq V c t) cover

end Cert.KernelIdeal.LastLayer

end
-- ==== Proof.RefLayers.lean ====
/-
  The reference's dense stages are the same whole-array functions.

  In the reference a layer's product is one `dot_general` over the whole array, read at an index as the sum over the
  128 contracted positions; a convolution layer's output is the neighbourhood aggregate plus the product scaled by
  the reciprocal degree of the row plus the bias of the column, then the maximum with zero; the last layer is the sum
  of two products plus the bias of the column. Read index by index these are `rowsTimes`, `combine` and `twoProducts`
  of the same operands. The degree column and the bias row are taken as variables that agree with the reference's
  vectors entry by entry, so that either way of laying a vector out as a one-column or one-row array can be used.
-/
import proofs.«161812_j81604378624011_1_alg».proof.Proof.Gen.ReferenceIdeal.Read
import proofs.«161812_j81604378624011_1_alg».proof.Proof.Layers

noncomputable section

namespace Cert.ReferenceIdeal.Layered

open Idealize.ShloMosaic Idealize.ShloMosaic.TcCoe Idealize.ShloMosaic.ValueIdx
open Cert.ReferenceIdeal Cert.ReferenceIdeal.Read Cert.Layers

/-- The reference's array types at the extended reals: node features, a weight, the edge list, a bias vector. -/
abbrev Feat : Type := (⟨S50000x128, .f32⟩ : BufTy).Contents (Elt Ideal)
abbrev Wt : Type := (⟨S128x128, .f32⟩ : BufTy).Contents (Elt Ideal)
abbrev Edges : Type := (⟨S2x600000, .i32⟩ : BufTy).Contents (Elt Ideal)
abbrev Bias : Type := (⟨S128, .f32⟩ : BufTy).Contents (Elt Ideal)

/-- The whole-array product read at an index is the sum over the contracted axis: row `i 0` of the left operand
    against column `i 1` of the weight. -/
theorem product_eq (x : Feat) (w : Wt) : val_main_v4 (F := Ideal) x w = rowsTimes x w := by
  funext i
  rw [val_main_v4_apply]
  unfold rowsTimes
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

/-- The first convolution layer, after its rectifier. -/
theorem layer1_eq (x0 : Feat) (x1 : Edges) (x3 : Wt) (x4 : Bias) (d : NodeCol.Idx → EReal) (b : FeatRow.Idx → EReal)
    (hd : ∀ r : Fin 50000, d (ix2 r (0 : Fin 1)) = val_main_v41 (F := Ideal) x1 (ix1 r))
    (hb : ∀ q : Fin 128, b (ix2 (0 : Fin 1) q) = x4 (ix1 q)) :
    val_main_v49 (F := Ideal) x0 x1 x3 x4 = combine (val_main_v39 (F := Ideal) x0 x1 x3) (val_main_v4 (F := Ideal) x0 x3) d b := by
  funext i
  rw [val_main_v49_apply, val_main_v48_apply, val_main_v45_apply, val_main_v44_apply, val_main_v43_apply, val_main_v42_apply,
    val_main_v47_apply, val_main_v46_apply, val_main_call0_v0_apply, val_main_call0_cst_apply]
  unfold combine
  rw [hd (i 0), hb (i 1)]
  have e1 : idx_main_v42 (idx_main_v43 i) = ix1 (i 0) := funext fun a => Fin.ext (by
    match a with
    | ⟨0, _⟩ => rfl)
  have e2 : idx_main_v46 (idx_main_v47 i) = ix1 (i 1) := funext fun a => Fin.ext (by
    match a with
    | ⟨0, _⟩ => rfl)
  rw [e1, e2]
  rfl

/-- The second layer's product. -/
theorem product2_eq (x0 : Feat) (x1 : Edges) (x3 : Wt) (x4 : Bias) (x5 : Wt) :
    val_main_v50 (F := Ideal) x0 x1 x3 x4 x5 = rowsTimes (val_main_v49 (F := Ideal) x0 x1 x3 x4) x5 :=
  product_eq _ _

/-- The second convolution layer, after its rectifier (the reference computes the degrees a second time: the same
    function of the edge list). -/
theorem layer2_eq (x0 : Feat) (x1 : Edges) (x3 : Wt) (x4 : Bias) (x5 : Wt) (x6 : Bias) (d : NodeCol.Idx → EReal) (b : FeatRow.Idx → EReal)
    (hd : ∀ r : Fin 50000, d (ix2 r (0 : Fin 1)) = val_main_v87 (F := Ideal) x1 (ix1 r))
    (hb : ∀ q : Fin 128, b (ix2 (0 : Fin 1) q) = x6 (ix1 q)) :
    val_main_v95 (F := Ideal) x0 x1 x3 x4 x5 x6
      = combine (val_main_v85 (F := Ideal) x0 x1 x3 x4 x5) (val_main_v50 (F := Ideal) x0 x1 x3 x4 x5) d b := by
  funext i
  rw [val_main_v95_apply, val_main_v94_apply, val_main_v91_apply, val_main_v90_apply, val_main_v89_apply, val_main_v88_apply,
    val_main_v93_apply, val_main_v92_apply, val_main_call1_v0_apply, val_main_call1_cst_apply]
  unfold combine
  rw [hd (i 0), hb (i 1)]
  have e1 : idx_main_v88 (idx_main_v89 i) = ix1 (i 0) := funext fun a => Fin.ext (by
    match a with
    | ⟨0, _⟩ => rfl)
  have e2 : idx_main_v92 (idx_main_v93 i) = ix1 (i 1) := funext fun a => Fin.ext (by
    match a with
    | ⟨0, _⟩ => rfl)
  rw [e1, e2]
  rfl

/-- The last layer: the neighbourhood mean times one weight, the layer's input times the other, plus the bias. -/
theorem layer3_eq (x0 : Feat) (x1 : Edges) (x3 : Wt) (x4 : Bias) (x5 : Wt) (x6 : Bias) (x7 x8 : Wt) (x9 : Bias) (b : FeatRow.Idx → EReal)
    (hb : ∀ q : Fin 128, b (ix2 (0 : Fin 1) q) = x9 (ix1 q)) :
    val_main_v120 (F := Ideal) x0 x1 x3 x4 x5 x6 x7 x8 x9
      = twoProducts (val_main_v114 (F := Ideal) x0 x1 x3 x4 x5 x6) x7 (val_main_v95 (F := Ideal) x0 x1 x3 x4 x5 x6) x8 b := by
  funext i
  rw [val_main_v120_apply, val_main_v117_apply, val_main_v119_apply, val_main_v118_apply]
  unfold twoProducts
  rw [hb (i 1), ← product_eq, ← product_eq]
  have e2 : idx_main_v118 (idx_main_v119 i) = ix1 (i 1) := funext fun a => Fin.ext (by
    match a with
    | ⟨0, _⟩ => rfl)
  rw [e2]
  rfl

end Cert.ReferenceIdeal.Layered

end
-- ==== Proof.Boundaries.lean ====
/-
  What each tiled region leaves, walked through @main from the launch to the result.

  Boundary by boundary: after the first stretch the shared buffers hold functions of the edge list; the first region
  leaves the product of the node features with the first weight; the next stretch gathers it along the edges, scales
  it by the edge normalisation and scatter-adds it to the destinations; the second region leaves the rectified
  combine; the third region its product with the second weight; and so on to the last layer and the mean over each
  graph. At every boundary the buffer that matters holds the reference's own stage function of the launch arguments:
  a host stretch applies the same operations as the reference to operands that are the same by the previous
  boundary, and a region's array is the whole-array function that the reference's operations compute index by index.
-/
import proofs.«161812_j81604378624011_1_alg».proof.Proof.Carried
import proofs.«161812_j81604378624011_1_alg».proof.Proof.KernelRun
import proofs.«161812_j81604378624011_1_alg».proof.Proof.FirstProduct
import proofs.«161812_j81604378624011_1_alg».proof.Proof.FirstCombine
import proofs.«161812_j81604378624011_1_alg».proof.Proof.SecondProduct
import proofs.«161812_j81604378624011_1_alg».proof.Proof.SecondCombine
import proofs.«161812_j81604378624011_1_alg».proof.Proof.LastLayer
import proofs.«161812_j81604378624011_1_alg».proof.Proof.RefLayers
import Idealize.ShloMosaic.Lib.ValueLayout

set_option maxRecDepth 16384

noncomputable section

namespace Cert.KernelIdeal.Boundaries

open Idealize.ShloMosaic Idealize.ShloMosaic.TcCoe Idealize.ShloMosaic.ValueIdx Idealize.SL.Sem Idealize.ShloMosaic.StableHlo
open Cert.KernelIdeal Cert.KernelIdeal.Gen Cert.KernelIdeal.Carried Cert.Layers
open Cert.ReferenceIdeal.Read Cert.ReferenceIdeal.Layered

variable (m : (ℓ : Loc nD τ sig) → Buf (Elt Ideal) ℓ) (ρ : Dev nD → PrngReg)

/-- A vector over the nodes laid out as a one-column array reads, at (r, 0), the vector at r. -/
theorem column_apply (v : S50000.Idx → EReal) (h : S50000.ShapeCasts S50000x1) (r : Fin 50000) :
    shapeCast S50000x1 v h (ix2 r (0 : Fin 1)) = v (ix1 r) :=
  shapeCast_apply v h _ _ (by
    rw [Shape.rowMajor_val_two, Shape.rowMajor_val_one]
    show r.val = r.val * 1 + 0
    omega)

/-! ## The first layer -/

/-- After the first region its output holds the product of the node features with the first weight. -/
theorem w2_v29 (c : Dev nD) :
    W2 m ρ c (Proc.devRef .tc main_v29) = val_main_v4 (F := Ideal) (arg m c main_arg0) (arg m c main_arg3) :=
  (W2_arr m ρ c 2).trans (((FirstProduct.array (V1 m ρ) c).trans
    (congrArg₂ rowsTimes (w1_arg0 m ρ c) (w1_arg3 m ρ c))).trans (product_eq _ _).symm)

/-- The neighbourhood aggregate of the first layer: the product gathered along the edges' sources, scaled by the edge
    normalisation and summed into the edges' destinations. -/
theorem w3_v42 (c : Dev nD) :
    W3 m ρ c (Proc.devRef .tc main_v42) = val_main_v39 (F := Ideal) (arg m c main_arg0) (arg m c main_arg1) (arg m c main_arg3) := by
  show StableHlo.after hostOps1 (W2 m ρ c) (Proc.devRef .tc main_v42) = _
  after_results_simp
  rw [w2_v29 m ρ c, w2_v25 m ρ c, w2_v3 m ρ c, w2_v1 m ρ c]
  rfl

theorem w3_v29 (c : Dev nD) :
    W3 m ρ c (Proc.devRef .tc main_v29) = val_main_v4 (F := Ideal) (arg m c main_arg0) (arg m c main_arg3) :=
  ((not_written_by hostOps1 : StableHlo.after hostOps1 (W2 m ρ c) (Proc.devRef .tc main_v29) = W2 m ρ c (Proc.devRef .tc main_v29))).trans (w2_v29 m ρ c)

/-- The first bias laid out as a row. -/
theorem w3_v43 (c : Dev nD) :
    W3 m ρ c (Proc.devRef .tc main_v43) = shapeCast S1x128 (arg m c main_arg4) shapeCasts_S128_S1x128 := by
  show StableHlo.after hostOps1 (W2 m ρ c) (Proc.devRef .tc main_v43) = _
  after_results_simp
  exact congrArg (fun v => shapeCast S1x128 v shapeCasts_S128_S1x128) (w2_arg4 m ρ c)

/-- After the second region its output holds the first layer's rectified output. -/
theorem w4_v44 (c : Dev nD) :
    W4 m ρ c (Proc.devRef .tc main_v44) = val_main_v49 (F := Ideal) (arg m c main_arg0) (arg m c main_arg1) (arg m c main_arg3) (arg m c main_arg4) := by
  refine (W4_arr m ρ c 4).trans ((FirstCombine.array (V3 m ρ) c).trans ?_)
  refine Eq.symm ((layer1_eq (arg m c main_arg0) (arg m c main_arg1) (arg m c main_arg3) (arg m c main_arg4) (V3 m ρ c main_v28) (V3 m ρ c main_v43) ?_ ?_).trans ?_)
  · intro r
    show W3 m ρ c (Proc.devRef .tc main_v28) (ix2 r (0 : Fin 1)) = _
    rw [w3_v28 m ρ c]
    exact column_apply _ _ r
  · intro q
    show W3 m ρ c (Proc.devRef .tc main_v43) (ix2 (0 : Fin 1) q) = _
    rw [w3_v43 m ρ c]
    exact shapeCast_a_1a_apply _ _ 0 q
  · exact (congrArg₂ (fun a h => combine a h (V3 m ρ c main_v28) (V3 m ρ c main_v43)) (w3_v42 m ρ c) (w3_v29 m ρ c)).symm

/-! ## The second layer -/

/-- After the third region its output holds the product of the first layer's output with the second weight. -/
theorem w5_v45 (c : Dev nD) :
    W5 m ρ c (Proc.devRef .tc main_v45) = val_main_v50 (F := Ideal) (arg m c main_arg0) (arg m c main_arg1) (arg m c main_arg3) (arg m c main_arg4) (arg m c main_arg5) :=
  (W5_arr m ρ c 2).trans (((SecondProduct.array (V4 m ρ) c).trans
    (congrArg₂ rowsTimes (w4_v44 m ρ c) (w4_arg5 m ρ c))).trans (product2_eq _ _ _ _ _).symm)

/-- The neighbourhood aggregate of the second layer (the reference recomputes the edge normalisation: the same
    function of the edge list). -/
theorem w6_v58 (c : Dev nD) :
    W6 m ρ c (Proc.devRef .tc main_v58) = val_main_v85 (F := Ideal) (arg m c main_arg0) (arg m c main_arg1) (arg m c main_arg3) (arg m c main_arg4) (arg m c main_arg5) := by
  show StableHlo.after hostOps3 (W5 m ρ c) (Proc.devRef .tc main_v58) = _
  after_results_simp
  rw [w5_v45 m ρ c, w5_v25 m ρ c, w5_v3 m ρ c, w5_v1 m ρ c]
  rfl

theorem w6_v45 (c : Dev nD) :
    W6 m ρ c (Proc.devRef .tc main_v45) = val_main_v50 (F := Ideal) (arg m c main_arg0) (arg m c main_arg1) (arg m c main_arg3) (arg m c main_arg4) (arg m c main_arg5) :=
  ((not_written_by hostOps3 : StableHlo.after hostOps3 (W5 m ρ c) (Proc.devRef .tc main_v45) = W5 m ρ c (Proc.devRef .tc main_v45))).trans (w5_v45 m ρ c)

/-- The second bias laid out as a row. -/
theorem w6_v59 (c : Dev nD) :
    W6 m ρ c (Proc.devRef .tc main_v59) = shapeCast S1x128 (arg m c main_arg6) shapeCasts_S128_S1x128 := by
  show StableHlo.after hostOps3 (W5 m ρ c) (Proc.devRef .tc main_v59) = _
  after_results_simp
  exact congrArg (fun v => shapeCast S1x128 v shapeCasts_S128_S1x128) (w5_arg6 m ρ c)

/-- After the fourth region its output holds the second layer's rectified output. -/
theorem w7_v60 (c : Dev nD) :
    W7 m ρ c (Proc.devRef .tc main_v60) = val_main_v95 (F := Ideal) (arg m c main_arg0) (arg m c main_arg1) (arg m c main_arg3) (arg m c main_arg4) (arg m c main_arg5) (arg m c main_arg6) := by
  refine (W7_arr m ρ c 4).trans ((SecondCombine.array (V6 m ρ) c).trans ?_)
  refine Eq.symm ((layer2_eq (arg m c main_arg0) (arg m c main_arg1) (arg m c main_arg3) (arg m c main_arg4) (arg m c main_arg5) (arg m c main_arg6) (V6 m ρ c main_v28) (V6 m ρ c main_v59) ?_ ?_).trans ?_)
  · intro r
    show W6 m ρ c (Proc.devRef .tc main_v28) (ix2 r (0 : Fin 1)) = val_main_v41 (F := Ideal) (arg m c main_arg1) (ix1 r)
    rw [w6_v28 m ρ c]
    exact column_apply _ _ r
  · intro q
    show W6 m ρ c (Proc.devRef .tc main_v59) (ix2 (0 : Fin 1) q) = _
    rw [w6_v59 m ρ c]
    exact shapeCast_a_1a_apply _ _ 0 q
  · exact (congrArg₂ (fun a h => combine a h (V6 m ρ c main_v28) (V6 m ρ c main_v59)) (w6_v58 m ρ c) (w6_v45 m ρ c)).symm

/-! ## The last layer and the mean over each graph -/

/-- The neighbourhood mean: the second layer's output gathered along the sources and summed into the destinations,
    divided by the number of incoming edges or one. -/
theorem w8_v78 (c : Dev nD) :
    W8 m ρ c (Proc.devRef .tc main_v78) = val_main_v114 (F := Ideal) (arg m c main_arg0) (arg m c main_arg1) (arg m c main_arg3) (arg m c main_arg4) (arg m c main_arg5) (arg m c main_arg6) := by
  show StableHlo.after hostOps4 (W7 m ρ c) (Proc.devRef .tc main_v78) = _
  after_results_simp
  rw [w7_v60 m ρ c, w7_v4 m ρ c, w7_v3 m ρ c, w7_v1 m ρ c]
  rfl

theorem w8_v60 (c : Dev nD) :
    W8 m ρ c (Proc.devRef .tc main_v60) = val_main_v95 (F := Ideal) (arg m c main_arg0) (arg m c main_arg1) (arg m c main_arg3) (arg m c main_arg4) (arg m c main_arg5) (arg m c main_arg6) :=
  ((not_written_by hostOps4 : StableHlo.after hostOps4 (W7 m ρ c) (Proc.devRef .tc main_v60) = W7 m ρ c (Proc.devRef .tc main_v60))).trans (w7_v60 m ρ c)

/-- The last bias laid out as a row. -/
theorem w8_v79 (c : Dev nD) :
    W8 m ρ c (Proc.devRef .tc main_v79) = shapeCast S1x128 (arg m c main_arg9) shapeCasts_S128_S1x128 := by
  show StableHlo.after hostOps4 (W7 m ρ c) (Proc.devRef .tc main_v79) = _
  after_results_simp
  exact congrArg (fun v => shapeCast S1x128 v shapeCasts_S128_S1x128) (w7_arg9 m ρ c)

/-- After the fifth region its output holds the last layer's output. -/
theorem w9_v80 (c : Dev nD) :
    W9 m ρ c (Proc.devRef .tc main_v80) = val_main_v120 (F := Ideal) (arg m c main_arg0) (arg m c main_arg1) (arg m c main_arg3) (arg m c main_arg4) (arg m c main_arg5) (arg m c main_arg6) (arg m c main_arg7) (arg m c main_arg8) (arg m c main_arg9) := by
  refine (W9_arr m ρ c 5).trans ((LastLayer.array (V8 m ρ) c).trans ?_)
  refine Eq.symm ((layer3_eq (arg m c main_arg0) (arg m c main_arg1) (arg m c main_arg3) (arg m c main_arg4) (arg m c main_arg5) (arg m c main_arg6) (arg m c main_arg7) (arg m c main_arg8) (arg m c main_arg9) (V8 m ρ c main_v79) ?_).trans ?_)
  · intro q
    show W8 m ρ c (Proc.devRef .tc main_v79) (ix2 (0 : Fin 1) q) = _
    rw [w8_v79 m ρ c]
    exact shapeCast_a_1a_apply _ _ 0 q
  · have h1 := w8_v78 m ρ c
    have h2 := w8_arg7 m ρ c
    have h3 := w8_v60 m ρ c
    have h4 := w8_arg8 m ρ c
    show twoProducts _ _ _ _ _ = twoProducts (W8 m ρ c (Proc.devRef .tc main_v78)) (W8 m ρ c (Proc.devRef .tc main_arg7))
      (W8 m ρ c (Proc.devRef .tc main_v60)) (W8 m ρ c (Proc.devRef .tc main_arg8)) (V8 m ρ c main_v79)
    rw [h1, h2, h3, h4]

/-- The result: the last layer's output summed per graph and divided by the graph's node count or one. -/
theorem w10_v92 (c : Dev nD) :
    W10 m ρ c (Proc.devRef .tc main_v92) = val_main_v132 (F := Ideal) (arg m c main_arg0) (arg m c main_arg1) (arg m c main_arg2) (arg m c main_arg3) (arg m c main_arg4) (arg m c main_arg5) (arg m c main_arg6) (arg m c main_arg7) (arg m c main_arg8) (arg m c main_arg9) := by
  show StableHlo.after hostOps5 (W9 m ρ c) (Proc.devRef .tc main_v92) = _
  after_results_simp
  rw [w9_v80 m ρ c, w9_arg2 m ρ c]
  rfl

/-! ## The kernel's run, with its value -/

/-- Every weakly fair execution of the kernel's @main terminates, nothing faulting, with the result at the
    reference's result function of the launch arguments, and the arguments unchanged. -/
theorem run : θ_run defs (onTc (τ := τ) (main (F := Ideal))) ⟨m, fun _ => 0, ρ⟩ (fun r => ∀ c : Dev nD,
      r.2.mem ((c.tc : Thread nD τ).loc main_v92) = val_main_v132 (F := Ideal) (arg m c main_arg0) (arg m c main_arg1) (arg m c main_arg2) (arg m c main_arg3) (arg m c main_arg4) (arg m c main_arg5) (arg m c main_arg6) (arg m c main_arg7) (arg m c main_arg8) (arg m c main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w10_v92 m ρ c), (h c).2⟩) (Valued.run_result m ρ)

end Cert.KernelIdeal.Boundaries

end
-- ==== Proof.lean ====
/-
  A three-layer graph network, tiled, against its plain reference.

  Both programs compute, from node features x, an edge list, a graph id per node and three layers' weights and biases:
  two graph-convolution layers h ↦ max (A · (h W) + (h W) / deg + b, 0), where A scatter-adds along the edges the rows
  of h W gathered at the sources and scaled by rsqrt (deg src) · rsqrt (deg dst); a mean-aggregation layer
  (mean over incoming edges of h) · W_l + h · W_r + b; and the mean of the result over the nodes of each graph.
  The kernel runs each dense piece — the three products and the two combines — as a tiled region of ten row blocks
  and everything that follows the edge list on the host; the reference runs everything on the host.

  On the extended reals a change of float format is the identity, a tile of a matrix product is the same sums as the
  rows of the whole product, and the tiles of a pointwise combine are the rows of the whole combine. So every region
  leaves in its output array exactly the whole-array function the reference's operations compute, and every host
  stretch applies the reference's own operations to the same operands: the two results are one function of the
  arguments, term by term. No law that needs finite entries is used — only the order of the sums as both programs
  write it — so the precondition is never opened.
-/
import proofs.«161812_j81604378624011_1_alg».proof.Defs
import proofs.«161812_j81604378624011_1_alg».proof.Proof.Gen.Kernel
import proofs.«161812_j81604378624011_1_alg».proof.Proof.Gen.Kernel.Frame
import proofs.«161812_j81604378624011_1_alg».proof.Proof.Gen.KernelIdeal
import proofs.«161812_j81604378624011_1_alg».proof.Proof.Gen.KernelIdeal.Frame
import proofs.«161812_j81604378624011_1_alg».proof.Proof.Gen.ReferenceIdeal
import proofs.«161812_j81604378624011_1_alg».proof.Proof.Gen.Pre_finite_inputs
import proofs.«161812_j81604378624011_1_alg».proof.Proof.Gen.ReferenceIdeal.Run
import proofs.«161812_j81604378624011_1_alg».proof.Proof.Gen.ReferenceIdeal.Read
import proofs.«161812_j81604378624011_1_alg».proof.Proof.Boundaries
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation. -/
theorem preserves : Cert.preserves_Kernel_KernelIdeal := trivial

/-- From memories that agree on the arguments both programs end with the same result: the reference's result
    function of the arguments, which the kernel's boundaries were walked to and the reference's run states. -/
theorem algebraic : Cert.algebraic_KernelIdeal_ReferenceIdeal := by
  intro m ρ m' ρ' _ hagree
  refine ⟨fun c => Cert.ReferenceIdeal.Read.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Boundaries.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v132_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
